-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x192 : Shape := ⟨2, ![8192, 192]⟩
abbrev S256x64 : Shape := ⟨2, ![256, 64]⟩
abbrev S256x1 : Shape := ⟨2, ![256, 1]⟩
abbrev S64x64 : Shape := ⟨2, ![64, 64]⟩
abbrev S64x1 : Shape := ⟨2, ![64, 1]⟩
abbrev S_ : Shape := ⟨0, ![]⟩

class Facts : Prop where
  bcast_S_S8192x192 : S_.BroadcastsInDim S8192x192 (![] : Fin 0 → Fin S8192x192.rank)
  reducesTo_S8192x192_S_d0_1 : S8192x192.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S256x1 : S_.BroadcastsInDim S256x1 (![] : Fin 0 → Fin S256x1.rank)
  reducesTo_S256x1_S_d0_1 : S256x1.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg4 : FVec F S64x1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  main_v23

def fn {F : FTy → Type} [FloatOps F] (main_arg0 : FVec F S8192x192 .f32) (main_arg1 : FVec F S256x64 .f32) (main_arg2 : FVec F S256x1 .f32) (main_arg3 : FVec F S64x64 .f32) (main_arg4 : FVec F S64x1 .f32) : IVec S_ 1 :=
  let main_v0 : FVec F S8192x192 .f32 := Host.absf main_arg0
  let main_cst : FVec F S_ .f32 := constant S_ .f32 0x7F800000#32
  let main_v1 : FVec F S8192x192 .f32 := broadcastInDim S8192x192 ![] bcast_S_S8192x192 main_cst
  let main_v2 : IVec S8192x192 1 := cmpf .olt main_v0 main_v1
  let main_c : IVec S_ 1 := constantI S_ 1 1#1
  let main_v3 : IVec S_ 1 := (fun x v => Host.reduce IntOp.andi x v reducesTo_S8192x192_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256x1 .f32 := Host.absf main_arg2
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S8192x192 : Shape := ⟨2, ![8192, 192]⟩
abbrev S256x64 : Shape := ⟨2, ![256, 64]⟩
abbrev S256x1 : Shape := ⟨2, ![256, 1]⟩
abbrev S64x64 : Shape := ⟨2, ![64, 64]⟩
abbrev S64x1 : Shape := ⟨2, ![64, 1]⟩
abbrev S8192x64 : Shape := ⟨2, ![8192, 64]⟩
abbrev S4096x192 : Shape := ⟨2, ![4096, 192]⟩
abbrev S4096x64 : Shape := ⟨2, ![4096, 64]⟩
abbrev S4096 : Shape := ⟨1, ![4096]⟩
abbrev S4096x1 : Shape := ⟨2, ![4096, 1]⟩

abbrev nBuf : Space → Nat
  | .hbm => 6
  | .vmem => 4
  | .smem => 0
  | _ => 0

abbrev bufTy : (tb : Table) → Fin (tcTables nBuf tb) → BufTy
  | .hbm, ⟨0, _⟩ => ⟨S8192x192, .f32⟩
  | .hbm, ⟨1, _⟩ => ⟨S256x64, .f32⟩
  | .hbm, ⟨2, _⟩ => ⟨S256x1, .f32⟩
  | .hbm, ⟨3, _⟩ => ⟨S64x64, .f32⟩
  | .hbm, ⟨4, _⟩ => ⟨S64x1, .f32⟩
  | .hbm, ⟨5, _⟩ => ⟨S8192x64, .f32⟩
  | .local _ .vmem, ⟨0, _⟩ => ⟨S4096x192, .f32⟩
  | .local _ .vmem, ⟨1, _⟩ => ⟨S4096x192, .f32⟩
  | .local _ .vmem, ⟨2, _⟩ => ⟨S4096x64, .f32⟩
  | .local _ .vmem, ⟨3, _⟩ => ⟨S4096x64, .f32⟩
  | _, _ => ⟨S8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4096x192_S4096x64_0_128 : ∀ a, (![0, 128] : Fin 2 → Nat) a + S4096x64.size a ≤ S4096x192.size a
  h_S4096x64 : 0 < S4096x64.numel
  reduces_S4096x64_S4096 : S4096x64.Reduces [1] S4096
  shapeCasts_S4096_S4096x1 : S4096.ShapeCasts S4096x1
  broadcasts_S4096x1_S4096x64 : S4096x1.Broadcasts S4096x64
  inb_S4096x64_S4096x64_0_0 : ∀ a, (![0, 0] : Fin 2 → Nat) a + S4096x64.size a ≤ S4096x64.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x192.size a ≤ S8192x192.size a
  hwx0_0 : ∀ i : grid0.Coords, EltTy.bits .f32 = 32 ∨ (Rect.block (s := S8192x192) S4096x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S8192x64.size a
  hwx0_1 : ∀ i : grid0.Coords, EltTy.bits .f32 = 32 ∨ (Rect.block (s := S8192x64) S4096x64.size (cc0_transform_1 i) (hinb0_1 i)).WholeWords (EltTy.packing .f32)

variable [Facts₀]

abbrev win0_0 : Pipeline.Window sig grid0 :=
  Pipeline.Window.ofSpec (Memref.whole main_arg0) S4096x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x192 : Shape := ⟨2, ![8192, 192]⟩
abbrev S256x64 : Shape := ⟨2, ![256, 64]⟩
abbrev S256x1 : Shape := ⟨2, ![256, 1]⟩
abbrev S64x64 : Shape := ⟨2, ![64, 64]⟩
abbrev S64x1 : Shape := ⟨2, ![64, 1]⟩
abbrev S64 : Shape := ⟨1, ![64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S64x8192 : Shape := ⟨2, ![64, 8192]⟩
abbrev S1x64 : Shape := ⟨2, ![1, 64]⟩
abbrev S256 : Shape := ⟨1, ![256]⟩
abbrev S256x8192 : Shape := ⟨2, ![256, 8192]⟩
abbrev S1x256 : Shape := ⟨2, ![1, 256]⟩
abbrev S8192x256 : Shape := ⟨2, ![8192, 256]⟩
abbrev S1x64x64 : Shape := ⟨3, ![1, 64, 64]⟩
abbrev S8192x1x1 : Shape := ⟨3, ![8192, 1, 1]⟩
abbrev S8192x64x64 : Shape := ⟨3, ![8192, 64, 64]⟩
abbrev S256x8192x64 : Shape := ⟨3, ![256, 8192, 64]⟩

abbrev nBuf : Space → Nat
  | .hbm => 109
  | .vmem => 0
  | .smem => 0
  | _ => 0

abbrev bufTy : (tb : Table) → Fin (tcTables nBuf tb) → BufTy
  | .hbm, ⟨0, _⟩ => ⟨S8192x192, .f32⟩
  | .hbm, ⟨1, _⟩ => ⟨S256x64, .f32⟩
  | .hbm, ⟨2, _⟩ => ⟨S256x1, .f32⟩
  | .hbm, ⟨3, _⟩ => ⟨S64x64, .f32⟩
  | .hbm, ⟨4, _⟩ => ⟨S64x1, .f32⟩
  | .hbm, ⟨5, _⟩ => ⟨S64, .f32⟩
  | .hbm, ⟨6, _⟩ => ⟨S8192x64, .f32⟩
  | .hbm, ⟨7, _⟩ => ⟨S8192x64, .f32⟩
  | .hbm, ⟨8, _⟩ => ⟨S8192x64, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x64, .f32⟩
  | .hbm, ⟨17, _⟩ => ⟨S8192x64, .f32⟩
  | .hbm, ⟨18, _⟩ => ⟨S64x8192, .f32⟩
  | .hbm, ⟨19, _⟩ => ⟨S8192x64, .f32⟩
  | .hbm, ⟨20, _⟩ => ⟨S1x64, .f32⟩
  | .hbm, ⟨21, _⟩ => ⟨S8192x64, .f32⟩
  | .hbm, ⟨22, _⟩ => ⟨S8192x64, .f32⟩
  | .hbm, ⟨23, _⟩ => ⟨S256, .f32⟩
  | .hbm, ⟨24, _⟩ => ⟨S256x8192, .f32⟩
  | .hbm, ⟨25, _⟩ => ⟨S1x256, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S256x64, .f32⟩
  | .hbm, ⟨30, _⟩ => ⟨S256x64, .f32⟩
  | .hbm, ⟨31, _⟩ => ⟨S_, .f32⟩
  | .hbm, ⟨32, _⟩ => ⟨S256, .f32⟩
  | .hbm, ⟨33, _⟩ => ⟨S8192x256, .f32⟩
  | .hbm, ⟨34, _⟩ => ⟨S1x256, .f32⟩
  | .hbm, ⟨35, _⟩ => ⟨S8192x256, .f32⟩
  | .hbm, ⟨36, _⟩ => ⟨S8192x256, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S1x64x64, .f32⟩
  | .hbm, ⟨41, _⟩ => ⟨S8192x1x1, .f32⟩
  | .hbm, ⟨42, _⟩ => ⟨S8192x64x64, .f32⟩
  | .hbm, ⟨43, _⟩ => ⟨S8192x64x64, .f32⟩
  | .hbm, ⟨44, _⟩ => ⟨S8192x64x64, .f32⟩
  | .hbm, ⟨45, _⟩ => ⟨S8192x64, .f32⟩
  | .hbm, ⟨46, _⟩ => ⟨S8192x64, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192x1, .f32⟩
  | .hbm, ⟨54, _⟩ => ⟨S8192x64, .f32⟩
  | .hbm, ⟨55, _⟩ => ⟨S8192x64, .f32⟩
  | .hbm, ⟨56, _⟩ => ⟨S8192x64, .f32⟩
  | .hbm, ⟨57, _⟩ => ⟨S8192x64, .f32⟩
  | .hbm, ⟨58, _⟩ => ⟨S256, .f32⟩
  | .hbm, ⟨59, _⟩ => ⟨S256x8192, .f32⟩
  | .hbm, ⟨60, _⟩ => ⟨S1x256, .f32⟩
  | .hbm, ⟨61, _⟩ => ⟨S8192x256, .f32⟩
  | .hbm, ⟨62, _⟩ => ⟨S8192x256, .f32⟩
  | .hbm, ⟨63, _⟩ => ⟨S8192x256, .f32⟩
  | .hbm, ⟨64, _⟩ => ⟨S256x8192x64, .f32⟩
  | .hbm, ⟨65, _⟩ => ⟨S256x8192x64, .f32⟩
  | .hbm, ⟨66, _⟩ => ⟨S_, .f32⟩
  | .hbm, ⟨67, _⟩ => ⟨S256x8192, .f32⟩
  | .hbm, ⟨68, _⟩ => ⟨S8192x256, .f32⟩
  | .hbm, ⟨69, _⟩ => ⟨S8192x256, .f32⟩
  | .hbm, ⟨70, _⟩ => ⟨S8192x256, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S8192x1x1, .f32⟩
  | .hbm, ⟨75, _⟩ => ⟨S8192x64x64, .f32⟩
  | .hbm, ⟨76, _⟩ => ⟨S8192x64x64, .f32⟩
  | .hbm, ⟨77, _⟩ => ⟨S8192x64, .f32⟩
  | .hbm, ⟨78, _⟩ => ⟨S8192x64, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S8192x1, .f32⟩
  | .hbm, ⟨86, _⟩ => ⟨S8192x64, .f32⟩
  | .hbm, ⟨87, _⟩ => ⟨S8192x64, .f32⟩
  | .hbm, ⟨88, _⟩ => ⟨S8192x64, .f32⟩
  | .hbm, ⟨89, _⟩ => ⟨S8192x64, .f32⟩
  | .hbm, ⟨90, _⟩ => ⟨S256, .f32⟩
  | .hbm, ⟨91, _⟩ => ⟨S256x8192, .f32⟩
  | .hbm, ⟨92, _⟩ => ⟨S1x256, .f32⟩
  | .hbm, ⟨93, _⟩ => ⟨S8192x256, .f32⟩
  | .hbm, ⟨94, _⟩ => ⟨S8192x256, .f32⟩
  | .hbm, ⟨95, _⟩ => ⟨S8192x256, .f32⟩
  | .hbm, ⟨96, _⟩ => ⟨S256x8192x64, .f32⟩
  | .hbm, ⟨97, _⟩ => ⟨S256x8192x64, .f32⟩
  | .hbm, ⟨98, _⟩ => ⟨S_, .f32⟩
  | .hbm, ⟨99, _⟩ => ⟨S256x8192, .f32⟩
  | .hbm, ⟨100, _⟩ => ⟨S8192x256, .f32⟩
  | .hbm, ⟨101, _⟩ => ⟨S8192x256, .f32⟩
  | .hbm, ⟨102, _⟩ => ⟨S8192x256, .f32⟩
  | .hbm, ⟨103, _⟩ => ⟨S_, .f32⟩
  | .hbm, ⟨104, _⟩ => ⟨S8192, .f32⟩
  | .hbm, ⟨105, _⟩ => ⟨S8192, .f32⟩
  | .hbm, ⟨106, _⟩ => ⟨S8192x1x1, .f32⟩
  | .hbm, ⟨107, _⟩ => ⟨S8192x64x64, .f32⟩
  | .hbm, ⟨108, _⟩ => ⟨S8192x64x64, .f32⟩
  | _, _ => ⟨S8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call1_v0 : Ref sig .tc := ⟨.hbm, 46, rfl⟩
abbrev main_call1_cst : Ref sig .tc := ⟨.hbm, 47, rfl⟩
abbrev main_call1_v1 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_3 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_4 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_call2_v0 : Ref sig .tc := ⟨.hbm, 78, rfl⟩
abbrev main_call2_cst : Ref sig .tc := ⟨.hbm, 79, rfl⟩
abbrev main_call2_v1 : Ref sig .tc := ⟨.hbm, 80, rfl⟩
abbrev main_v61 : Ref sig .tc := ⟨.hbm, 81, rfl⟩
abbrev main_cst_5 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_6 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_7 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩

abbrev nD : Nat := 1
abbrev τ : Topo := Topo.v7x

variable {F : FTy → Type} [FloatOps F]

class Facts₀ : Prop where
  shapeCasts_S64x1_S64 : S64x1.ShapeCasts S64
  slices_S8192x192_S8192x64_0_0 : S8192x192.Slices ![0, 0] S8192x64
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  transposes_S64x8192_S8192x64_1_0 : S64x8192.Transposes [1, 0] S8192x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  shapeCasts_S256x1_S256 : S256x1.ShapeCasts S256
  bcast_S256_S1x256_1 : S256.BroadcastsInDim S1x256 (![1] : Fin 1 → Fin S1x256.rank)
  transposes_S256x8192_S8192x256_1_0 : S256x8192.Transposes [1, 0] S8192x256
  bcast_S1x256_S8192x256_0_1 : S1x256.BroadcastsInDim S8192x256 (![0, 1] : Fin 2 → Fin S8192x256.rank)
  reducesTo_S256x64_S256_d1 : S256x64.ReducesTo [1] S256
  reducesTo_S8192x256_S8192_d1 : S8192x256.ReducesTo [1] S8192
  bcast_S64x64_S1x64x64_1_2 : S64x64.BroadcastsInDim S1x64x64 (![1, 2] : Fin 2 → Fin S1x64x64.rank)
  bcast_S8192_S8192x1x1_0 : S8192.BroadcastsInDim S8192x1x1 (![0] : Fin 1 → Fin S8192x1x1.rank)
  bcast_S1x64x64_S8192x64x64_0_1_2 : S1x64x64.BroadcastsInDim S8192x64x64 (![0, 1, 2] : Fin 3 → Fin S8192x64x64.rank)
  bcast_S8192x1x1_S8192x64x64_0_1_2 : S8192x1x1.BroadcastsInDim S8192x64x64 (![0, 1, 2] : Fin 3 → Fin S8192x64x64.rank)
  slices_S8192x192_S8192x64_0_64 : S8192x192.Slices ![0, 64] S8192x64
  reducesTo_S256x8192x64_S256x8192_d2 : S256x8192x64.ReducesTo [2] S256x8192
  slices_S8192x192_S8192x64_0_128 : S8192x192.Slices ![0, 128] S8192x64
  dot_S64x64_S8192x64_S64x8192_1_1_0_0_n_n_wf : DotDims.WF S64x64 S8192x64 S64x8192 [1] [1] [0] [0] [] []
  dot_S256x64_S8192x64_S256x8192_1_1_0_0_n_n_wf : DotDims.WF S256x64 S8192x64 S256x8192 [1] [1] [0] [0] [] []
  dot_S256x64_S64x64_S256x64_1_0_0_1_n_n_wf : DotDims.WF S256x64 S64x64 S256x64 [1] [0] [0] [1] [] []
  dot_S8192x64x64_S8192x64_S8192x64_2_1_1_n_0_0_wf : DotDims.WF S8192x64x64 S8192x64 S8192x64 [2] [1] [1] [] [0] [0]
  dot_S256x64_S8192x64x64_S256x8192x64_1_1_0_02_n_n_wf : DotDims.WF S256x64 S8192x64x64 S256x8192x64 [1] [1] [0] [0, 2] [] []

variable [Facts₀]

def dot_S64x64_S8192x64_S64x8192_1_1_0_0_n_n : DotDims S64x64 S8192x64 S64x8192 where
  lhsContracting := [1]
  rhsContracting := [1]
  lhsNonContracting := [0]
  rhsNonContracting := [0]
  lhsBatch := []
  rhsBatch := []
  wf := dot_S64x64_S8192x64_S64x8192_1_1_0_0_n_n_wf
def dot_S256x64_S8192x64_S256x8192_1_1_0_0_n_n : DotDims S256x64 S8192x64 S256x8192 where
  lhsContracting := [1]
  rhsContracting := [1]
  lhsNonContracting := [0]
  rhsNonContracting := [0]
  lhsBatch := []
  rhsBatch := []
  wf := dot_S256x64_S8192x64_S256x8192_1_1_0_0_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S8192x64x64_S8192x64_S8192x64_2_1_1_n_0_0 : DotDims S8192x64x64 S8192x64 S8192x64 where
  lhsContracting := [2]
  rhsContracting := [1]
  lhsNonContracting := [1]
  rhsNonContracting := []
  lhsBatch := [0]
  rhsBatch := [0]
  wf := dot_S8192x64x64_S8192x64_S8192x64_2_1_1_n_0_0_wf
def dot_S256x64_S8192x64x64_S256x8192x64_1_1_0_02_n_n : DotDims S256x64 S8192x64x64 S256x8192x64 where
  lhsContracting := [1]
  rhsContracting := [1]
  lhsNonContracting := [0]
  rhsNonContracting := [0, 2]
  lhsBatch := []
  rhsBatch := []
  wf := dot_S256x64_S8192x64x64_S256x8192x64_1_1_0_02_n_n_wf

class Facts : Prop extends Facts₀ where

variable [Facts]
-- ==== Proof.RowNormalize.lean ====
/-
  Row normalisation of the last 64 of 192 columns.

  For an [8192, 192] array `x` of extended reals and a row `r` put `s r = Σ_{k < 64} x[r, 128 + k]²`.  The result is the
  [8192, 64] array whose entry `(r, q)` is `x[r, 128 + q] / max (√(s r)) ε`, with `ε` the exact value of the f32 word
  `0x2B8CBCCC` (the float nearest 10⁻¹²).  Quotient, square root and maximum are the extended reals' own.

  Both programs compute exactly this expression, operation for operation; they differ in how the rows are cut into blocks
  and in the order in which the 64 squares of a row are added, and a finite sum in a commutative monoid has no order.
  So no entry needs to be finite for the two to agree.
-/
import Idealize.ShloMosaic.PureOps.Ideal.Laws
import Idealize.ShloMosaic.Lib.ValueIdx

noncomputable section

namespace Cert.RowNormalize

open Idealize.ShloMosaic Idealize.ShloMosaic.ValueIdx

/-- Column `128 + q` of the wide array: column `q` of its last group of 64. -/
abbrev lastCol (q : Fin 64) : Fin 192 := ⟨128 + q.val, by have := q.isLt; omega⟩

/-- The clamp under the norm: the f32 word nearest to 10⁻¹², at its exact value. -/
abbrev eps : EReal := Ideal.ofBits .f32 0x2B8CBCCC#32

/-- The sum of the squares of the last 64 entries of row `r`. -/
def sumSq (x : (⟨2, ![8192, 192]⟩ : Shape).Idx → EReal) (r : Fin 8192) : EReal :=
  ∑ k : Fin 64, x (ix2 r (lastCol k)) * x (ix2 r (lastCol k))

/-- An entry over the clamped Euclidean norm `max (√s) ε` of its row's last 64 entries, `s` their sum of squares. -/
def quotient (a s : EReal) : EReal := Ideal.div a (max (Ideal.sqrt s) eps)

/-- Each of the last 64 entries of every row divided by that row's clamped norm. -/
def rowNormalize (x : (⟨2, ![8192, 192]⟩ : Shape).Idx → EReal) : (⟨2, ![8192, 64]⟩ : Shape).Idx → EReal :=
  fun i => quotient (x (ix2 (i 0) (lastCol (i 1)))) (sumSq x (i 0))

/-- The entry `(p, q)` of the result. -/
theorem rowNormalize_apply (x : (⟨2, ![8192, 192]⟩ : Shape).Idx → EReal) (p : Fin 8192) (q : Fin 64) :
    rowNormalize x (ix2 p q) = quotient (x (ix2 p (lastCol q))) (sumSq x p) := rfl

end Cert.RowNormalize

end
-- ==== Proof.ReferenceValue.lean ====
/-
  The reference computes the row normalisation.

  Its result is `x₃ / max (√(0 + Σ_k x₃[r, k]²)) ε` broadcast back along the row, where `x₃` is the slice of columns
  128 … 191 of the first argument.  Every other operation of the reference feeds values that the result never reads.
  Read at an index `(p, q)`, stage by stage, this is the entry `x[p, 128 + q]` over the clamped norm of the last 64
  entries of row `p`; the sum's initial value is the zero word.
-/
import proofs.«140362_j45930380264256_2_alg».proof.Proof.Gen.ReferenceIdeal.Read
import proofs.«140362_j45930380264256_2_alg».proof.Proof.RowNormalize

noncomputable section

namespace Cert.ReferenceIdeal.RefValue

open Cert.ReferenceIdeal Cert.ReferenceIdeal.Gen Cert.ReferenceIdeal.Read
open Idealize.ShloMosaic Idealize.ShloMosaic.ValueIdx Cert.RowNormalize

/-- The slice's entry `(p, q)` is the argument's entry `(p, 128 + q)`. -/
theorem slice_idx (p : Fin 8192) (q : Fin 64) : idx_main_v60 (ix2 p q) = ix2 p (lastCol q) :=
  funext fun a => Fin.ext (by match a with | ⟨0, _⟩ => rfl | ⟨1, _⟩ => rfl)

/-- The divisor at `(p, q)` is read, through the two broadcasts and the sum over the row, at the slice's entries `(p, k)`. -/
theorem row_idx (p : Fin 8192) (q k : Fin 64) :
    idx_main_v60 (idx_main_call2_v1 (idx_main_v64 (idx_main_v65 (ix2 p q))) k) = ix2 p (lastCol k) :=
  funext fun a => Fin.ext (by match a with | ⟨0, _⟩ => rfl | ⟨1, _⟩ => rfl)

/-- The reference's result, as a function of its first argument, is the row normalisation. -/
theorem result_eq (x : (⟨S8192x192, .f32⟩ : BufTy).Contents (Elt Ideal)) :
    val_main_v66 (F := Ideal) x = rowNormalize x := by
  funext i
  obtain ⟨p, q, rfl⟩ : ∃ (p : Fin 8192) (q : Fin 64), i = ix2 p q := ⟨i 0, i 1, eq_ix2 i⟩
  rw [rowNormalize_apply, val_main_v66_apply, val_main_v65_apply, val_main_v64_apply, val_main_v63_apply, val_main_v61_apply,
    val_main_call2_v1_apply, val_main_v62_apply, val_main_cst_5_apply, val_main_call2_cst_apply, val_main_v60_apply, slice_idx]
  simp only [val_main_call2_v0_apply, val_main_v60_apply, row_idx, Ideal.hostDivf_def, Ideal.hostUnary_sqrt_def,
    Ideal.maximumf_def, Ideal.mulf_def, Ideal.ofBits_def, Ideal.ofBits_zero_f32, zero_add]
  rfl

end Cert.ReferenceIdeal.RefValue

end
-- ==== Proof.LibColumn.lean ====
/-
  General lemmas about rank-2 vectors, at any extents.

  * Keepdims column forms: an `[a]` vector cast to `[a, 1]` reads, at `(p, u)`, the vector at `p`; an `[a, 1]`
    column broadcast to `[a, b]` reads, at `(p, q)`, the column at `(p, 0)`.
  * Inserting coordinate `k` on the reduced second axis of an `[a, b]` vector at reduced index `p` gives `(p, k)`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` vector cast to a column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Reducing the second axis of `[a, b]` to `[a]`: the reduced index `p` with coordinate `k` put back is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

end Cert.LibColumn

end
-- ==== Proof.KernelBlock.lean ====
/-
  The kernel computes the row normalisation.

  The kernel runs at two grid points; point `t` loads rows `4096 t … 4096 t + 4095` of the argument, all 192 columns,
  takes columns 128 … 191 of that block, divides each entry by the clamped norm of its row of the slice, and writes the
  [4096, 64] result back as rows `4096 t … 4096 t + 4095` of the output.  A row's norm only reads that row, so block
  `t` of the output is block `t` of the row normalisation of the whole argument; the two blocks tile the 8192 rows.
-/
import proofs.«140362_j45930380264256_2_alg».proof.Proof.Gen.KernelIdeal.Value
import proofs.«140362_j45930380264256_2_alg».proof.Proof.RowNormalize
import proofs.«140362_j45930380264256_2_alg».proof.Proof.LibColumn

noncomputable section

namespace Cert.KernelIdeal.RowValue

open Cert.KernelIdeal Cert.KernelIdeal.Gen Cert.KernelIdeal.Value
open Idealize.ShloMosaic Idealize.ShloMosaic.TcCoe Idealize.SL.Sem Idealize.ShloMosaic.ValueIdx Cert.RowNormalize
open Idealize.ShloMosaic.Pipeline (Dat)

/-! ## One block -/

/-- The sum over the second axis of the squares of a [4096, 64] block, at row `p`. -/
theorem rowSum_apply (P : Vec Ideal S4096x64 .f32) (hacc : (0x00000000#32 : BitVec 32) = 0x00000000#32) (p : Fin 4096) :
    multiReduction (F := Ideal) .add [1] S4096 (mulf P P) 0x00000000#32 reduces_S4096x64_S4096 (.inl rfl) hacc (ix1 p)
      = ∑ k : Fin 64, P (ix2 p k) * P (ix2 p k) := by
  refine (Ideal.multiReduction_add_single (mulf P P) 0x00000000#32 reduces_S4096x64_S4096 (.inl rfl) hacc (ix1 p)).trans ?_
  refine Finset.sum_congr rfl fun k _ => ?_
  rw [Cert.LibColumn.lift_row reduces_S4096x64_S4096 p k]
  rfl

/-- What the body leaves at `(p, q)` of its output block, as a function of the [4096, 64] slice `P` it loaded:
    `P[p, q]` over the clamped norm of row `p` of `P`. -/
theorem block_apply (P : Vec Ideal S4096x64 .f32) (p : Fin 4096) (q : Fin 64) :
    E1 (F := Ideal) P (ix2 p q) = quotient (P (ix2 p q)) (∑ k : Fin 64, P (ix2 p k) * P (ix2 p k)) := by
  have e0 : ix1_0 (ix2 p q) = ix2 p q := funext fun a => Fin.ext (by match a with | ⟨0, _⟩ => rfl | ⟨1, _⟩ => rfl)
  have e1 : ix1_1 (ix2 p q) = ix1 p := funext fun a => Fin.ext (by match a with | ⟨0, _⟩ => rfl)
  show Ideal.div (P (ix1_0 (ix2 p q))) (max (Ideal.sqrt (multiReduction (F := Ideal) .add [1] S4096 (mulf P P) 0x00000000#32
    reduces_S4096x64_S4096 (.inl rfl) rfl (ix1_1 (ix2 p q)))) (Ideal.ofBits .f32 0x2B8CBCCC#32)) = _
  rw [e0, e1, rowSum_apply P rfl p]
  rfl

/-- Entry `(p, k)` of the slice the body loads from a [4096, 192] block `X` is `X[p, 128 + k]`. -/
theorem slice_apply (X : Vec Ideal S4096x192 .f32) (p : Fin 4096) (k : Fin 64) :
    View.ld X r0_0 (ix2 p k) = X (ix2 p (lastCol k)) := by
  show X (r0_0.idx (ix2 p k)) = _
  refine congrArg X (funext fun a => Fin.ext ?_)
  match a with
  | ⟨0, _⟩ => show 0 + 1 * p.val = p.val; omega
  | ⟨1, _⟩ => show 128 + 1 * k.val = 128 + k.val; omega

/-- What the body leaves at `(p, q)` of its output block, as a function of the whole [4096, 192] input block `X`. -/
theorem out_apply (X : Vec Ideal S4096x192 .f32) (p : Fin 4096) (q : Fin 64) :
    out0_1 (F := Ideal) X (ix2 p q)
      = quotient (X (ix2 p (lastCol q))) (∑ k : Fin 64, X (ix2 p (lastCol k)) * X (ix2 p (lastCol k))) := by
  unfold out0_1
  refine (canon1_eq (F := Ideal) (View.ld X r0_0) (ix2 p q)).trans ?_
  refine (block_apply (View.ld X r0_0) p q).trans ?_
  rw [slice_apply X p q]
  refine congrArg (quotient _) (Finset.sum_congr rfl fun k _ => ?_)
  rw [slice_apply X p k]

end Cert.KernelIdeal.RowValue

end
-- ==== Proof.KernelArray.lean ====
/-
  From the kernel's two blocks to its output array.

  The input window and the output window both move down the rows with the grid point and never sideways: at point `t`
  the input block is rows `4096 t … 4096 t + 4095` of the argument and the block written back is the same rows of the
  output.  What point `t` writes is therefore block `t` of the row normalisation of the whole argument, and since row
  `r` lies in block `r / 4096`, the blocks cover the output: after the run the output array is the row normalisation.
-/
import proofs.«140362_j45930380264256_2_alg».proof.Proof.KernelBlock

noncomputable section

namespace Cert.KernelIdeal.RowValue

open Cert.KernelIdeal Cert.KernelIdeal.Gen Cert.KernelIdeal.Value
open Idealize.ShloMosaic Idealize.ShloMosaic.TcCoe Idealize.SL.Sem Idealize.ShloMosaic.ValueIdx Cert.RowNormalize
open Idealize.ShloMosaic.Pipeline (Dat)

variable (m : (ℓ : Loc nD τ sig) → Buf (Elt Ideal) ℓ) (ρ : Dev nD → PrngReg)

/-- Both windows' block index at point `t` is `(t, 0)` (decided over the two points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry `(p, k)` of the input block at point `t` is the argument's entry `(4096 t + p, k)`. -/
theorem iblk_apply (c : Dev nD) (t : Fin cfg0.N) (p : Fin 4096) (k : Fin 192) (r : Fin 8192) (hr : r.val = 4096 * t.val + p.val) :
    (iblk m c 0 t : Vec Ideal S4096x192 .f32) (ix2 p k)
      = (m ((c : Thread nD τ).loc main_arg0) : S8192x192.Idx → Elt Ideal .f32) (ix2 r k) := by
  obtain ⟨e0, e1, -, -⟩ := idx_facts t
  unfold iblk
  rw [View.read_apply]
  show V m c main_arg0 _ = m (c.tc.loc main_arg0) _
  refine congrArg (m (c.tc.loc main_arg0)) (funext fun a => Fin.ext ?_)
  match a with
  | ⟨0, _⟩ => show win0_0.index t 0 * 4096 + 1 * p.val = r.val; rw [e0, hr]; omega
  | ⟨1, _⟩ => show win0_0.index t 1 * 192 + 1 * k.val = k.val; rw [e1]; omega

/-- If a [4096, 192] block `X` is rows `4096 τ … 4096 τ + 4095` of an array `A`, then what the body leaves at an index
    `y` of its output block is the row normalisation of `A` at the index `i` lying `4096 τ` rows further down. -/
theorem point_eq (X : Vec Ideal S4096x192 .f32) (A : S8192x192.Idx → EReal) (tv : ℕ)
    (hX : ∀ (p : Fin 4096) (k : Fin 192) (r : Fin 8192), r.val = 4096 * tv + p.val → X (ix2 p k) = A (ix2 r k))
    (y : S4096x64.Idx) (i : S8192x64.Idx) (h0 : (i 0).val = 4096 * tv + (y 0).val) (h1 : (i 1).val = (y 1).val) :
    out0_1 (F := Ideal) X y = rowNormalize A i := by
  obtain ⟨p, q, rfl⟩ : ∃ (p : Fin 4096) (q : Fin 64), y = ix2 p q := ⟨y 0, y 1, eq_ix2 y⟩
  obtain ⟨r, q', rfl⟩ : ∃ (r : Fin 8192) (q' : Fin 64), i = ix2 r q' := ⟨i 0, i 1, eq_ix2 i⟩
  obtain rfl : q' = q := Fin.ext h1
  rw [out_apply, rowNormalize_apply, hX p (lastCol q') r h0]
  refine congrArg (quotient _) ?_
  unfold sumSq
  refine Finset.sum_congr rfl fun k _ => ?_
  rw [hX p (lastCol k) r h0]

/-- What point `t` writes back is block `t` of the row normalisation of the argument. -/
theorem flushed_eq (c : Dev nD) (t : Fin cfg0.N) :
    (dats m 0 c).flushed 1 t
      = ((cfg0.win 1).blk t).view.read (Elt Ideal) (rowNormalize (m ((c : Thread nD τ).loc main_arg0))) := by
  obtain ⟨-, -, e2, e3⟩ := idx_facts t
  rw [flushed1]
  funext j
  show out0_1 (iblk m c 0 t) j = rowNormalize (m (c.tc.loc main_arg0)) (((cfg0.win 1).blk t).view.emb j)
  exact point_eq (iblk m c 0 t) (m (c.tc.loc main_arg0)) t.val (fun p k r hr => iblk_apply m c t p k r hr) j
    (((cfg0.win 1).blk t).view.emb j)
    (by show win0_1.index t 0 * 4096 + 1 * (j 0).val = 4096 * t.val + (j 0).val; rw [e2]; omega)
    (by show win0_1.index t 1 * 64 + 1 * (j 1).val = (j 1).val; rw [e3]; omega)

/-- An index of the output is in point `t`'s block iff each coordinate is in the block's range on its axis. -/
theorem mem_blk (t : Fin cfg0.N) (i : S8192x64.Idx) :
    i ∈ ((cfg0.win 1).blk t).view.set ↔ ∀ a : Fin 2, win0_1.index t a * S4096x64.size a ≤ (i a).val
      ∧ (i a).val < win0_1.index t a * S4096x64.size a + S4096x64.size a := by
  show i ∈ ((View.whole main_v0).slice (win0_1.rect t)).set ↔ _
  rw [View.set_slice_whole, Rect.mem_set_unit]
  exact Iff.rfl

/-- Row `r` of the output lies in the block written at point `r / 4096`. -/
theorem cover (i : S8192x64.Idx) :
    ∃ t : Fin cfg0.N, (cfg0.win 1).flush t = true ∧ i ∈ ((cfg0.win 1).blk t).view.set := by
  have hi0 : (i 0).val < 8192 := (i 0).isLt
  have hi1 : (i 1).val < 64 := (i 1).isLt
  have hN : cfg0.N = 2 := N_0
  obtain ⟨t, ht⟩ : ∃ t : Fin cfg0.N, t.val = (i 0).val / 4096 := ⟨⟨(i 0).val / 4096, by rw [hN]; omega⟩, rfl⟩
  obtain ⟨-, -, e2, e3⟩ := idx_facts t
  refine ⟨t, flush0_1 t, ?_⟩
  rw [mem_blk]
  intro a
  match a with
  | ⟨0, _⟩ =>
    show win0_1.index t 0 * 4096 ≤ (i 0).val ∧ (i 0).val < win0_1.index t 0 * 4096 + 4096
    rw [e2, ht]; omega
  | ⟨1, _⟩ =>
    show win0_1.index t 1 * 64 ≤ (i 1).val ∧ (i 1).val < win0_1.index t 1 * 64 + 64
    rw [e3]; omega

/-- After the run the output array is the row normalisation of the argument. -/
theorem final (c : Dev nD) :
    (dats m 0 c).arrAt 1 cfg0.N = rowNormalize (m ((c : Thread nD τ).loc main_arg0)) :=
  (dats m 0 c).arrAt_eq_of_cover 1 (rowNormalize (m ((c : Thread nD τ).loc main_arg0))) (fun t _ => flushed_eq m c t) cover

/-- The kernel's run: the output ends at the row normalisation of the first argument, every argument as launched. -/
theorem run : θ_run defs (onTc (τ := τ) (main (F := Ideal))) ⟨m, fun _ => 0, ρ⟩ fun r => ∀ c : Dev nD,
      r.2.mem ((c : Thread nD τ).loc main_v0) = rowNormalize (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.RowValue

end
-- ==== Proof.lean ====
/-
  The kernel against its reference, over the extended reals.

  The reference normalises, row by row, the last 64 of the 192 entries of each of the 8192 rows of its first argument:
  entry `(r, q)` of its result is `x[r, 128 + q] / max (√(Σ_k x[r, 128 + k]²)) ε`.  (It goes on to compute other
  quantities from the remaining arguments, none of which its result reads.)  The kernel computes the same quotient on two
  blocks of 4096 rows.  Both are the one function `RowNormalize.rowNormalize` of the first argument:
  `ReferenceValue` reads the reference's stages at an index, `KernelBlock` reads the kernel's body on one block,
  `KernelArray` puts the two blocks together.  The two sides apply the same operations in the same order to the same
  numbers, so the equality needs no algebraic law and no finiteness of the inputs.

  The idealised kernel is the kernel's own text read over the extended reals (nothing was rewritten), so there is
  nothing to preserve beyond `True`; the three frames are the generated runs.
-/
import proofs.«140362_j45930380264256_2_alg».proof.Defs
import proofs.«140362_j45930380264256_2_alg».proof.Proof.Gen.Kernel
import proofs.«140362_j45930380264256_2_alg».proof.Proof.Gen.Kernel.Frame
import proofs.«140362_j45930380264256_2_alg».proof.Proof.Gen.KernelIdeal
import proofs.«140362_j45930380264256_2_alg».proof.Proof.Gen.KernelIdeal.Frame
import proofs.«140362_j45930380264256_2_alg».proof.Proof.Gen.ReferenceIdeal
import proofs.«140362_j45930380264256_2_alg».proof.Proof.Gen.Pre_finite_inputs
import proofs.«140362_j45930380264256_2_alg».proof.Proof.Gen.KernelIdeal.Value
import proofs.«140362_j45930380264256_2_alg».proof.Proof.Gen.ReferenceIdeal.Run
import proofs.«140362_j45930380264256_2_alg».proof.Proof.Gen.ReferenceIdeal.Read
import proofs.«140362_j45930380264256_2_alg».proof.Proof.ReferenceValue
import proofs.«140362_j45930380264256_2_alg».proof.Proof.KernelArray
import Idealize.ShloMosaic.Adequacy
import Idealize.ShloMosaic.Init

noncomputable section

namespace Cert.Proof

open Idealize.ShloMosaic Idealize.ShloMosaic.TcCoe Idealize.SL.Sem

/-- The kernel, word for word: it terminates without a fault and leaves its arguments as they were. -/
theorem frame_kernel : Cert.frame_Kernel :=
  fun m ρ _ => Cert.Kernel.Gen.frame m ρ

/-- The same for the kernel read over the extended reals. -/
theorem frame_kernelIdeal : Cert.frame_KernelIdeal :=
  fun m ρ _ => Cert.KernelIdeal.Gen.frame m ρ

/-- The reference is a straight line of array operations: its run, with the result forgotten. -/
theorem frame_referenceIdeal : Cert.frame_ReferenceIdeal :=
  fun m ρ _ => (θ_run Cert.ReferenceIdeal.defs _ _).mono (fun _ h c => (h c).2)
    (Cert.ReferenceIdeal.Value.run (F := Ideal) m ρ)

/-- From memories that agree on the arguments, the kernel's output and the reference's result are both the row
    normalisation of the first argument. -/
theorem algebraic : Cert.algebraic_KernelIdeal_ReferenceIdeal := by
  intro m ρ m' ρ' _ hagree
  refine ⟨fun c => Cert.RowNormalize.rowNormalize (m ((c.tc : Thread Cert.KernelIdeal.nD Cert.KernelIdeal.τ).loc Cert.KernelIdeal.main_arg0)),
    Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, Cert.ReferenceIdeal.RefValue.result_eq, (hagree c).1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
